-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel

variable [Facts]

def fn {F : FTy → Type} [FloatOps F] (main_arg0 : FVec F S8x2048x768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  main_v3
-- ==== Kernel.lean ====
abbrev S8x2048x768 : Shape := ⟨3, ![8, 2048, 768]⟩
abbrev S16384x768 : Shape := ⟨2, ![16384, 768]⟩
abbrev S768x768 : Shape := ⟨2, ![768, 768]⟩
abbrev S4096x768 : Shape := ⟨2, ![4096, 768]⟩
abbrev S384x768 : Shape := ⟨2, ![384, 768]⟩
abbrev S4096x384 : Shape := ⟨2, ![4096, 384]⟩

abbrev nBuf : Space → Nat
  | .hbm => 3
  | .vmem => 5
  | .smem => 0
  | _ => 0

abbrev bufTy : (tb : Table) → Fin (tcTables nBuf tb) → BufTy
  | .hbm, ⟨0, _⟩ => ⟨S8x2048x768, .f32⟩
  | .hbm, ⟨1, _⟩ => ⟨S16384x768, .f32⟩
  | .hbm, ⟨2, _⟩ => ⟨S768x768, .f32⟩
  | .local _ .vmem, ⟨0, _⟩ => ⟨S4096x768, .f32⟩
  | .local _ .vmem, ⟨1, _⟩ => ⟨S4096x768, .f32⟩
  | .local _ .vmem, ⟨2, _⟩ => ⟨S384x768, .f32⟩
  | .local _ .vmem, ⟨3, _⟩ => ⟨S384x768, .f32⟩
  | .local _ .vmem, ⟨4, _⟩ => ⟨S384x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg0 : BitVec 32 := BitVec.ofNat 32 (i 0).val
  let c384_i32 : BitVec 32 := 384#32
  let v3 : BitVec 32 := Scalar.muli arg0 c384_i32
  v3
def k0_off1 (i : grid0.Coords) : Fin 2 → Nat :=
  let c0 : Index := 0#32
  let arg0 : BitVec 32 := BitVec.ofNat 32 (i 0).val
  let c384_i32 : BitVec 32 := 384#32
  let v3 : BitVec 32 := Scalar.muli arg0 c384_i32
  let v4 : BitVec 32 := v3
  let v5 : Index := Scalar.indexCast v4
  ![0, v5.toNat]
def k0_cond2 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_7 : BitVec 32 := 0#32
  let v20 : BitVec 1 := Scalar.cmpi .ne v19 c0_i32_7
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S384x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S8x2048x768_S16384x768 : S8x2048x768.ShapeCasts S16384x768
  inb_S384x768_S384x768_0_0 : ∀ a, (![0, 0] : Fin 2 → Nat) a + S384x768.size a ≤ S384x768.size a
  h_S384x768 : 0 < S384x768.numel
  shapeCasts_S384x768_S384x768 : S384x768.ShapeCasts S384x768
  h_S4096x384 : 0 < S4096x384.numel
  shapeCasts_S4096x384_S4096x384 : S4096x384.ShapeCasts S4096x384
  bitsLt_bf16_f32 : FTy.bits .bf16 < FTy.bits .f32
  inb_S4096x768_S4096x768_0_0 : ∀ a, (![0, 0] : Fin 2 → Nat) a + S4096x768.size a ≤ S4096x768.size a
  h_S4096x768 : 0 < S4096x768.numel
  shapeCasts_S4096x768_S4096x768 : S4096x768.ShapeCasts S4096x768
  dot_S4096x384_S4096x768_S384x768_0_0_1_1_n_n_wf : DotDims.WF S4096x384 S4096x768 S384x768 [0] [0] [1] [1] [] []
  hrank0 : 0 < grid0.rank
  k0_mult1_dvd : ∀ i : grid0.Coords, 128 ∣ (k0_mult1 i).toNat
  k0_off1_inb : ∀ i : grid0.Coords, ∀ a, (k0_off1 i) a + S4096x384.size a ≤ S4096x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S16384x768.size a
  hwx0_0 : ∀ i : grid0.Coords, EltTy.bits .f32 = 32 ∨ (Rect.block (s := S16384x768) S4096x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S384x768.size a ≤ S768x768.size a
  hwx0_1 : ∀ i : grid0.Coords, EltTy.bits .f32 = 32 ∨ (Rect.block (s := S768x768) S384x768.size (cc0_transform_1 i) (hinb0_1 i)).WholeWords (EltTy.packing .f32)

variable [Facts₀]

def dot_S4096x384_S4096x768_S384x768_0_0_1_1_n_n : DotDims S4096x384 S4096x768 S384x768 where
  lhsContracting := [0]
  rhsContracting := [0]
  lhsNonContracting := [1]
  rhsNonContracting := [1]
  lhsBatch := []
  rhsBatch := []
  wf := dot_S4096x384_S4096x768_S384x768_0_0_1_1_n_n_wf

abbrev win0_0 : Pipeline.Window sig grid0 :=
  Pipeline.Window.ofSpec (Memref.whole main_v0) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S384x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8x2048x768 : Shape := ⟨3, ![8, 2048, 768]⟩
abbrev S16384x768 : Shape := ⟨2, ![16384, 768]⟩
abbrev S768x768 : Shape := ⟨2, ![768, 768]⟩
abbrev S_ : Shape := ⟨0, ![]⟩
abbrev S768 : Shape := ⟨1, ![768]⟩
abbrev S768x1 : Shape := ⟨2, ![768, 1]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S16384x768, .f32⟩
  | .hbm, ⟨2, _⟩ => ⟨S768x768, .f32⟩
  | .hbm, ⟨3, _⟩ => ⟨S_, .f32⟩
  | .hbm, ⟨4, _⟩ => ⟨S768x768, .f32⟩
  | .hbm, ⟨5, _⟩ => ⟨S768x768, .f32⟩
  | .hbm, ⟨6, _⟩ => ⟨S16384x768, .f32⟩
  | .hbm, ⟨7, _⟩ => ⟨S_, .f32⟩
  | .hbm, ⟨8, _⟩ => ⟨S768, .f32⟩
  | .hbm, ⟨9, _⟩ => ⟨S_, .f32⟩
  | .hbm, ⟨10, _⟩ => ⟨S768, .f32⟩
  | .hbm, ⟨11, _⟩ => ⟨S768, .f32⟩
  | .hbm, ⟨12, _⟩ => ⟨S_, .f32⟩
  | .hbm, ⟨13, _⟩ => ⟨S768, .f32⟩
  | .hbm, ⟨14, _⟩ => ⟨S768x768, .i32⟩
  | .hbm, ⟨15, _⟩ => ⟨S768x768, .i32⟩
  | .hbm, ⟨16, _⟩ => ⟨S_, .i32⟩
  | .hbm, ⟨17, _⟩ => ⟨S768x768, .i32⟩
  | .hbm, ⟨18, _⟩ => ⟨S768x768, .i32⟩
  | .hbm, ⟨19, _⟩ => ⟨S768x768, .i1⟩
  | .hbm, ⟨20, _⟩ => ⟨S768x1, .f32⟩
  | .hbm, ⟨21, _⟩ => ⟨S_, .f32⟩
  | .hbm, ⟨22, _⟩ => ⟨S768x768, .f32⟩
  | .hbm, ⟨23, _⟩ => ⟨S768x768, .f32⟩
  | .hbm, ⟨24, _⟩ => ⟨S768x768, .f32⟩
  | .hbm, ⟨25, _⟩ => ⟨S768x768, .f32⟩
  | .hbm, ⟨26, _⟩ => ⟨S_, .f32⟩
  | .hbm, ⟨27, _⟩ => ⟨S768x768, .f32⟩
  | .hbm, ⟨28, _⟩ => ⟨S768x768, .f32⟩
  | .hbm, ⟨29, _⟩ => ⟨S_, .f32⟩
  | .hbm, ⟨30, _⟩ => ⟨S768x768, .f32⟩
  | .hbm, ⟨31, _⟩ => ⟨S768x768, .f32⟩
  | .hbm, ⟨32, _⟩ => ⟨S_, .f32⟩
  | .hbm, ⟨33, _⟩ => ⟨S768x768, .f32⟩
  | .hbm, ⟨34, _⟩ => ⟨S768x768, .f32⟩
  | .hbm, ⟨35, _⟩ => ⟨S768x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_c : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_0 : Ref sig .tc := ⟨.hbm, 21, rfl⟩
abbrev main_call0_call0_v0 : Ref sig .tc := ⟨.hbm, 22, rfl⟩
abbrev main_call0_call0_v1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_cst_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]

class Facts₀ : Prop where
  shapeCasts_S8x2048x768_S16384x768 : S8x2048x768.ShapeCasts S16384x768
  bcast_S_S768x768 : S_.BroadcastsInDim S768x768 (![] : Fin 0 → Fin S768x768.rank)
  reducesTo_S16384x768_S768_d0 : S16384x768.ReducesTo [0] S768
  h_S_ : 0 < S_.numel
  bcast_S_S768 : S_.BroadcastsInDim S768 (![] : Fin 0 → Fin S768.rank)
  pads_S768_S768_000 : S768.Pads (![0] : Fin 1 → Nat) ![0] ![0] S768
  bcast_S768_S768x1_0 : S768.BroadcastsInDim S768x1 (![0] : Fin 1 → Fin S768x1.rank)
  bcast_S768x1_S768x768_0_1 : S768x1.BroadcastsInDim S768x768 (![0, 1] : Fin 2 → Fin S768x768.rank)
  dot_S16384x768_S16384x768_S768x768_0_0_1_1_n_n_wf : DotDims.WF S16384x768 S16384x768 S768x768 [0] [0] [1] [1] [] []

variable [Facts₀]

def dot_S16384x768_S16384x768_S768x768_0_0_1_1_n_n : DotDims S16384x768 S16384x768 S768x768 where
  lhsContracting := [0]
  rhsContracting := [0]
  lhsNonContracting := [1]
  rhsNonContracting := [1]
  lhsBatch := []
  rhsBatch := []
  wf := dot_S16384x768_S16384x768_S768x768_0_0_1_1_n_n_wf

class Facts : Prop extends Facts₀ where

variable [Facts]
-- ==== Proof.Pieces.lean ====
/-
  What one grid point leaves behind, as values.

  At every point the body adds to the accumulator block the product of two pieces of the staged 4096-row band of
  the matrix: its 384 columns starting at 384·i (contracted over the rows) against all 768 columns.  At the first
  point of a row of the grid the accumulator is the zero block first; at the last point the output block is the
  accumulator scaled: ½·(acc·2⁻¹⁴) − ½.  Each lemma reads one case's stores back as the payload of its loads.
-/
import proofs.«152765_j67310727463545_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The 384 columns of the staged band that the left operand reads at grid point `i`. -/
abbrev cols (i : grid0.Coords) (x0 : Vec F S4096x768 .f32) : Vec F S4096x384 .f32 :=
  View.ld x0 (Rect.unit (s := S4096x768) (k0_off1 i) S4096x384.size (k0_off1_inb i))

/-- One accumulation step: `acc + colsᵀ · band`. -/
abbrev step (i : grid0.Coords) (x0 : Vec F S4096x768 .f32) (acc : Vec F S384x768 .f32) : Vec F S384x768 .f32 :=
  k0_pay2 (cols i x0) x0 acc

/-- A middle point: the accumulator advances by one step. -/
theorem scratch_B (c : Dev nD) (i : grid0.Coords) (a2 : Memref sig .tc .vmem S4096x768 .f32) (h2 : a2.IsWhole)
    (a3 : Memref sig .tc .vmem S384x768 .f32) (h3 : a3.IsWhole) (a4 : Memref sig .tc .vmem S384x768 .f32) (h4 : a4.IsWhole)
    (hc0 : ¬cond0_0 i) (hc1 : ¬cond0_1 i) (x0 : Vec F S4096x768 .f32) (xs0 : Vec F S384x768 .f32) :
    sout0_B_0 c i a2 h2 a3 h3 a4 h4 hc0 hc1 x0 xs0 = step i x0 xs0 := by
  unfold sout0_B_0
  rw [View.read_writes_eq_canon _ _ _ (scover0_B_0 c i a2 h2 a3 h3 a4 h4 hc0 hc1 x0 xs0)]
  unfold kernelRun0_B
  dsimp only
  rw [View.canon_unit_zero hz]
  simp only [View.readAt_eq_ld, h2.read_unread, h4.read_unread, View.ld_unit_zero (S := S4096x768) hz,
    View.ld_unit_zero (S := S384x768) hz]

/-- The first point of a row of the grid: the zero block, then one step. -/
theorem scratch_A (c : Dev nD) (i : grid0.Coords) (a2 : Memref sig .tc .vmem S4096x768 .f32) (h2 : a2.IsWhole)
    (a3 : Memref sig .tc .vmem S384x768 .f32) (h3 : a3.IsWhole) (a4 : Memref sig .tc .vmem S384x768 .f32) (h4 : a4.IsWhole)
    (hc0 : cond0_0 i) (hc1 : ¬cond0_1 i) (x0 : Vec F S4096x768 .f32) :
    sout0_A_0 c i a2 h2 a3 h3 a4 h4 hc0 hc1 x0 = step i x0 (k0_pay1 (F := F)) := by
  unfold sout0_A_0
  rw [View.read_writes_eq_canon _ _ _ (scover0_A_0 c i a2 h2 a3 h3 a4 h4 hc0 hc1 x0)]
  unfold kernelRun0_A
  dsimp only
  sl_unfold_words
  rw [View.canon_cons_unit_zero (S := S384x768) hz]
  simp only [View.readAt_eq_ld, h2.read_unread, View.ld_unit_zero (S := S4096x768) hz,
    View.readCov_unit_zero (S := S384x768) _ hz]
  rfl

/-- The last point of a row of the grid: one more step in the accumulator, -/
theorem scratch_C (c : Dev nD) (i : grid0.Coords) (a2 : Memref sig .tc .vmem S4096x768 .f32) (h2 : a2.IsWhole)
    (a3 : Memref sig .tc .vmem S384x768 .f32) (h3 : a3.IsWhole) (a4 : Memref sig .tc .vmem S384x768 .f32) (h4 : a4.IsWhole)
    (hc0 : ¬cond0_0 i) (hc1 : cond0_1 i) (x0 : Vec F S4096x768 .f32) (xs0 : Vec F S384x768 .f32) :
    sout0_C_0 c i a2 h2 a3 h3 a4 h4 hc0 hc1 x0 xs0 = step i x0 xs0 := by
  unfold sout0_C_0
  rw [View.read_writes_eq_canon _ _ _ (scover0_C_0 c i a2 h2 a3 h3 a4 h4 hc0 hc1 x0 xs0)]
  unfold kernelRun0_C
  dsimp only
  sl_unfold_words
  rw [View.canon_unit_zero hz]
  simp only [View.readAt_eq_ld, h2.read_unread, h4.read_unread, View.ld_unit_zero (S := S4096x768) hz,
    View.ld_unit_zero (S := S384x768) hz]
  rfl

/-- and the output block is the epilogue of that accumulator. -/
theorem out_C (c : Dev nD) (i : grid0.Coords) (a2 : Memref sig .tc .vmem S4096x768 .f32) (h2 : a2.IsWhole)
    (a3 : Memref sig .tc .vmem S384x768 .f32) (h3 : a3.IsWhole) (a4 : Memref sig .tc .vmem S384x768 .f32) (h4 : a4.IsWhole)
    (hc0 : ¬cond0_0 i) (hc1 : cond0_1 i) (x0 : Vec F S4096x768 .f32) (xs0 : Vec F S384x768 .f32) :
    out0_C_1 c i a2 h2 a3 h3 a4 h4 hc0 hc1 x0 xs0 = k0_pay3 (step i x0 xs0) := by
  unfold out0_C_1
  rw [View.read_writes_eq_canon _ _ _ (cover0_C_1 c i a2 h2 a3 h3 a4 h4 hc0 hc1 x0 xs0)]
  unfold kernelRun0_C
  dsimp only
  sl_unfold_words
  rw [View.canon_unit_zero hz]
  simp only [View.readAt_eq_ld, h2.read_unread, h4.read_unread, View.ld_unit_zero (S := S4096x768) hz,
    View.ld_unit_zero (S := S384x768) hz, View.readCov_unit_zero (S := S384x768) _ hz]
  rfl

end Cert.KernelIdeal.Pieces

end
-- ==== Proof.Accum.lean ====
/-
  The accumulator, point by point.

  The grid is 2 × 4, walked row-major: point n is row-block n / 4 of the output and band n % 4 of the matrix's rows.
  Along a row of the grid the accumulator starts from the zero block at band 0 and advances by one step per band;
  at band 3 the output block is the epilogue of the accumulator.  Both facts hold at every point, by induction.
-/
import proofs.«152765_j67310727463545_2_alg».proof.Proof.Pieces

noncomputable section

open Idealize.ShloMosaic Idealize.ShloMosaic.TcCoe Idealize.SL.Sem

namespace Cert.KernelIdeal.Accum

open Cert.KernelIdeal Cert.KernelIdeal.Gen Cert.KernelIdeal.Pieces

variable {F : FTy → Type} [FloatOps F]
variable (m : (ℓ : Loc nD τ sig) → Buf (Elt F) ℓ)

/-- The accumulator after point `n`: from the zero block at the first band of a row of the grid, one step per point. -/
def acc (c : Dev nD) : (n : ℕ) → n < cfg0.N → Vec F S384x768 .f32
  | 0, h => step (grid0.coords ⟨0, h⟩) (iblk m c 0 ⟨0, h⟩) (k0_pay1 (F := F))
  | n + 1, h =>
    if (n + 1) % 4 = 0 then step (grid0.coords ⟨n + 1, h⟩) (iblk m c 0 ⟨n + 1, h⟩) (k0_pay1 (F := F))
    else step (grid0.coords ⟨n + 1, h⟩) (iblk m c 0 ⟨n + 1, h⟩) (acc c n (Nat.lt_of_succ_lt h))

theorem acc_first (c : Dev nD) (n : ℕ) (h : n < cfg0.N) (h0 : n % 4 = 0) :
    acc m c n h = step (grid0.coords ⟨n, h⟩) (iblk m c 0 ⟨n, h⟩) (k0_pay1 (F := F)) := by
  cases n with
  | zero => rfl
  | succ n => exact if_pos h0

theorem acc_next (c : Dev nD) (n : ℕ) (h : n + 1 < cfg0.N) (h0 : ¬(n + 1) % 4 = 0) :
    acc m c (n + 1) h = step (grid0.coords ⟨n + 1, h⟩) (iblk m c 0 ⟨n + 1, h⟩) (acc m c n (Nat.lt_of_succ_lt h)) :=
  if_neg h0

/-- After the first band of a row of the grid the scratch holds one step from the zero block. -/
theorem scratch_first (c : Dev nD) (t : Fin cfg0.N) (h0 : t.val % 4 = 0) :
    (outsAt0 m c t.val t.isLt).2 = step (grid0.coords t) (iblk m c 0 t) (k0_pay1 (F := F)) := by
  have h1 : ¬t.val % 4 = 3 := by omega
  rw [outsAt0_A m c t h0 h1]
  dsimp only
  exact scratch_A c (grid0.coords t) (ms0_0 t) (hs0_0 t) (ms0_1 t) (hs0_1 t) scM0_0 (Memref.isWhole_whole _)
    ((hcond0_0 t).mpr h0) (fun h => h1 ((hcond0_1 t).mp h)) (iblk m c 0 t)

/-- After any later band it holds one step from what the point before left. -/
theorem scratch_next (c : Dev nD) (t : Fin cfg0.N) (h0 : ¬t.val % 4 = 0) :
    (outsAt0 m c t.val t.isLt).2
      = step (grid0.coords t) (iblk m c 0 t) (outsAt0 m c (t.val - 1) (Nat.lt_of_le_of_lt (Nat.sub_le _ _) t.isLt)).2 := by
  by_cases h1 : t.val % 4 = 3
  · rw [outsAt0_C m c t h0 h1]
    dsimp only
    exact scratch_C c (grid0.coords t) (ms0_0 t) (hs0_0 t) (ms0_1 t) (hs0_1 t) scM0_0 (Memref.isWhole_whole _)
      (fun h => h0 ((hcond0_0 t).mp h)) ((hcond0_1 t).mpr h1) (iblk m c 0 t)
      (outsAt0 m c (t.val - 1) (Nat.lt_of_le_of_lt (Nat.sub_le _ _) t.isLt)).2
  · rw [outsAt0_B m c t h0 h1]
    dsimp only
    exact scratch_B c (grid0.coords t) (ms0_0 t) (hs0_0 t) (ms0_1 t) (hs0_1 t) scM0_0 (Memref.isWhole_whole _)
      (fun h => h0 ((hcond0_0 t).mp h)) (fun h => h1 ((hcond0_1 t).mp h)) (iblk m c 0 t)
      (outsAt0 m c (t.val - 1) (Nat.lt_of_le_of_lt (Nat.sub_le _ _) t.isLt)).2

/-- What the carried scratch holds after point `n` is the accumulator. -/
theorem scratch_eq (c : Dev nD) : ∀ (n : ℕ) (h : n < cfg0.N), (outsAt0 m c n h).2 = acc m c n h
  | 0, h => (scratch_first m c ⟨0, h⟩ (Nat.zero_mod _)).trans (acc_first m c 0 h (Nat.zero_mod _)).symm
  | n + 1, h => by
    by_cases h0 : (n + 1) % 4 = 0
    · exact (scratch_first m c ⟨n + 1, h⟩ h0).trans (acc_first m c (n + 1) h h0).symm
    · refine (scratch_next m c ⟨n + 1, h⟩ h0).trans ?_
      rw [acc_next m c n h h0]
      exact congrArg (step (grid0.coords ⟨n + 1, h⟩) (iblk m c 0 ⟨n + 1, h⟩)) (scratch_eq c n (Nat.lt_of_succ_lt h))

/-- At the last band of a row of the grid the output block is the epilogue of the accumulator. -/
theorem out_eq (c : Dev nD) (t : Fin cfg0.N) (h1 : t.val % 4 = 3) :
    (outsAt0 m c t.val t.isLt).1 = k0_pay3 (acc m c t.val t.isLt) := by
  have h0 : ¬t.val % 4 = 0 := by omega
  rw [← scratch_eq m c t.val t.isLt, scratch_next m c t h0, outsAt0_C m c t h0 h1]
  dsimp only
  exact out_C c (grid0.coords t) (ms0_0 t) (hs0_0 t) (ms0_1 t) (hs0_1 t) scM0_0 (Memref.isWhole_whole _)
    (fun h => h0 ((hcond0_0 t).mp h)) ((hcond0_1 t).mpr h1) (iblk m c 0 t)
    (outsAt0 m c (t.val - 1) (Nat.lt_of_le_of_lt (Nat.sub_le _ _) t.isLt)).2

end Cert.KernelIdeal.Accum

end
-- ==== Proof.StepAt.lean ====
/-
  The three payloads of the kernel read at an index, at the ideal values.

  The zero block is 0 everywhere.  The epilogue maps an accumulator entry a to ½·(a·2⁻¹⁴) − ½.  One accumulation
  step adds, at row p' and column q of the block of grid row i₀, the sum over the 4096 staged rows n' of
  x(n', 384·i₀ + p') · x(n', q): the left factor is the band's column 384·i₀ + p', the right factor its column q,
  and the contraction runs over the rows of both.  Roundings to a narrower format and casts to the same shape are
  the identity on extended reals.
-/
import proofs.«152765_j67310727463545_2_alg».proof.Proof.Pieces
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.StepAt

open Cert.KernelIdeal Cert.KernelIdeal.Gen Cert.KernelIdeal.Pieces Idealize.ShloMosaic.ValueIdx

/-- The zero block reads 0 at every index. -/
theorem zero_apply (y : S384x768.Idx) : k0_pay1 (F := Ideal) y = Ideal.ofBits .f32 0x00000000#32 := rfl

/-- The epilogue at an index: ½ · (v · 2⁻¹⁴) − ½. -/
theorem epilogue_apply (v : Vec Ideal S384x768 .f32) (y : S384x768.Idx) :
    k0_pay3 (F := Ideal) v y
      = Ideal.ofBits .f32 0x3F000000#32 * (v y * Ideal.ofBits .f32 0x38800000#32) - Ideal.ofBits .f32 0x3F000000#32 := rfl

/-- The left operand's piece of the band at row n' and local column p' is the band at column 384·i₀ + p'. -/
theorem cols_apply (i : grid0.Coords) (x0 : Vec Ideal S4096x768 .f32) (n' : Fin 4096) (p' : Fin 384)
    (hp : 384 * (i 0).val + p'.val < 768) :
    cols (F := Ideal) i x0 (ix2 n' p') = x0 (ix2 n' ⟨384 * (i 0).val + p'.val, hp⟩) := by
  show x0 ((Rect.unit (s := S4096x768) (k0_off1 i) S4096x384.size (k0_off1_inb i)).idx (ix2 n' p')) = _
  refine congrArg x0 (funext fun a => Fin.ext ?_)
  match a with
  | ⟨0, _⟩ =>
    show k0_off1 i 0 + 1 * n'.val = n'.val
    rw [k0_off1_eq]; simp
  | ⟨1, _⟩ =>
    show k0_off1 i 1 + 1 * p'.val = 384 * (i 0).val + p'.val
    rw [k0_off1_eq]; simp

/-- One accumulation step at an index: the accumulator plus the product of column 384·i₀ + p' and column q of the
    band, summed over its 4096 rows. -/
theorem step_apply (i : grid0.Coords) (x0 : Vec Ideal S4096x768 .f32) (acc : Vec Ideal S384x768 .f32) (p' : Fin 384) (q : Fin 768)
    (hp : 384 * (i 0).val + p'.val < 768) :
    step (F := Ideal) i x0 acc (ix2 p' q)
      = acc (ix2 p' q) + ∑ n' : Fin 4096, x0 (ix2 n' ⟨384 * (i 0).val + p'.val, hp⟩) * x0 (ix2 n' q) := by
  show k0_pay2 (cols i x0) x0 acc (ix2 p' q) = _
  unfold k0_pay2
  simp only [shapeCast_self]
  refine congrArg (acc (ix2 p' q) + ·) ?_
  show FloatOps.matmul dot_S4096x384_S4096x768_S384x768_0_0_1_1_n_n none _ _ (constant S384x768 .f32 0x00000000#32) (ix2 p' q) = _
  rw [Ideal.matmul_constant_zero_apply,
    ← Equiv.sum_comp (contrEquiv1 dot_S4096x384_S4096x768_S384x768_0_0_1_1_n_n 4096 rfl rfl).symm]
  refine Finset.sum_congr rfl fun n' _ => ?_
  have c2 := contrEquiv1_symm_val dot_S4096x384_S4096x768_S384x768_0_0_1_1_n_n 4096 rfl rfl n'
  have l2 : dot_S4096x384_S4096x768_S384x768_0_0_1_1_n_n.lhsIdx (ix2 p' q)
      ((contrEquiv1 dot_S4096x384_S4096x768_S384x768_0_0_1_1_n_n 4096 rfl rfl).symm n') = ix2 n' p' := by
    funext ax; apply Fin.ext
    match ax with
    | ⟨0, _⟩ => exact (DotDims.lhsIdx_val_of_single _ rfl _ _).trans c2
    | ⟨1, _⟩ => rfl
  have r2 : dot_S4096x384_S4096x768_S384x768_0_0_1_1_n_n.rhsIdx (ix2 p' q)
      ((contrEquiv1 dot_S4096x384_S4096x768_S384x768_0_0_1_1_n_n 4096 rfl rfl).symm n') = ix2 n' q := by
    funext ax; apply Fin.ext
    match ax with
    | ⟨0, _⟩ => exact (DotDims.rhsIdx_val_of_single _ rfl _ _).trans c2
    | ⟨1, _⟩ => rfl
  rw [l2, r2]
  exact congrArg (· * x0 (ix2 n' q)) (cols_apply i x0 n' p' hp)

end Cert.KernelIdeal.StepAt

end
-- ==== Proof.Spec.lean ====
/-
  The mathematics of the claim, with no program in sight.

  For a matrix X with 16384 rows and 768 columns write S p q = ∑ₙ X n p · X n q.  One side computes
  ½ · (S p q · 2⁻¹⁴) − ½, accumulating S over four consecutive bands of 4096 rows; the other computes
  ½ · (S p q / 16384 − D p q) + ½ · (D p q − 1), where D is the diagonal matrix of the column means of squares.
  The sum over all rows is the sum of the four band sums (a regrouping, valid on the extended reals), and
  when every entry is a real number the two closed forms agree: the D terms cancel and 2⁻¹⁴ = 1/16384.
  The cancellation is where finiteness is used: on the extended reals D − D is not 0 at an infinity.
-/
import Idealize.ShloMosaic.PureOps.Ideal
import Idealize.ShloMosaic.PureOps.Ideal.Laws
import Idealize.ShloMosaic.Lib.ValueIdx

noncomputable section

namespace Cert.GramSpec

open Idealize.ShloMosaic

/-! ## The five float constants, as the numbers they denote -/

theorem ofBits_zero : Ideal.ofBits .f32 0x00000000#32 = 0 := Ideal.ofBits_zero_f32

/-- `0.5`. -/
theorem ofBits_half : Ideal.ofBits .f32 0x3F000000#32 = ((1 / 2 : ℝ) : EReal) := by
  simp [Ideal.ofBits, Ideal.ieee, -EReal.coe_mul]; norm_num

/-- `1.0`. -/
theorem ofBits_one : Ideal.ofBits .f32 0x3F800000#32 = ((1 : ℝ) : EReal) := by
  simp [Ideal.ofBits, Ideal.ieee, -EReal.coe_mul]; norm_num

/-- `16384.0` = 2¹⁴. -/
theorem ofBits_N : Ideal.ofBits .f32 0x46800000#32 = ((16384 : ℝ) : EReal) := by
  simp [Ideal.ofBits, Ideal.ieee, -EReal.coe_mul]; norm_num

/-- 2⁻¹⁴, exactly `1/16384`: a power of two, so the word denotes the quotient itself. -/
theorem ofBits_invN : Ideal.ofBits .f32 0x38800000#32 = ((1 / 16384 : ℝ) : EReal) := by
  simp [Ideal.ofBits, Ideal.ieee, -EReal.coe_mul]; norm_num

/-! ## Four bands of 4096 rows make the 16384 rows -/

/-- Row `n'` of band `k` (total in `k`: reduced modulo the row count, which changes nothing for `k < 4`). -/
def rowOf (k : ℕ) (n' : Fin 4096) : Fin 16384 := ⟨(4096 * k + n'.val) % 16384, Nat.mod_lt _ (by decide)⟩

theorem rowOf_val (k : ℕ) (hk : k < 4) (n' : Fin 4096) : (rowOf k n').val = 4096 * k + n'.val := by
  have := n'.isLt
  show (4096 * k + n'.val) % 16384 = _
  omega

/-- A row is a band and a position in it. -/
def bandEquiv : Fin 4 × Fin 4096 ≃ Fin 16384 where
  toFun := fun kn => ⟨4096 * kn.1.val + kn.2.val, by have := kn.1.isLt; have := kn.2.isLt; omega⟩
  invFun := fun n => (⟨n.val / 4096, by have := n.isLt; omega⟩, ⟨n.val % 4096, Nat.mod_lt _ (by decide)⟩)
  left_inv := fun kn => by
    have h1 := kn.1.isLt; have h2 := kn.2.isLt
    refine Prod.ext (Fin.ext ?_) (Fin.ext ?_)
    · show (4096 * kn.1.val + kn.2.val) / 4096 = kn.1.val; omega
    · show (4096 * kn.1.val + kn.2.val) % 4096 = kn.2.val; omega
  right_inv := fun n => by
    refine Fin.ext ?_
    show 4096 * (n.val / 4096) + n.val % 4096 = n.val; omega

/-- The sum over all rows is the sum, band by band, of the band sums. -/
theorem sum_bands (f : Fin 16384 → EReal) :
    ∑ k ∈ Finset.range 4, ∑ n' : Fin 4096, f (rowOf k n') = ∑ n : Fin 16384, f n := by
  have h1 : ∑ k ∈ Finset.range 4, ∑ n' : Fin 4096, f (rowOf k n') = ∑ k : Fin 4, ∑ n' : Fin 4096, f (rowOf k.val n') :=
    Finset.sum_range (fun k : ℕ => (∑ n' : Fin 4096, f (rowOf k n') : EReal))
  have h2 : ∑ kn : Fin 4 × Fin 4096, f (rowOf kn.1.val kn.2) = ∑ n : Fin 16384, f n :=
    Fintype.sum_equiv bandEquiv (fun kn : Fin 4 × Fin 4096 => f (rowOf kn.1.val kn.2)) f
      (fun kn => congrArg f (Fin.ext (rowOf_val kn.1.val kn.1.isLt kn.2)))
  rw [h1, ← h2]
  exact (Fintype.sum_prod_type (fun kn : Fin 4 × Fin 4096 => f (rowOf kn.1.val kn.2))).symm

/-- Column `p'` of row-block `i` of the output (total in `i`, as `rowOf`). -/
def colOf (i : ℕ) (p' : Fin 384) : Fin 768 := ⟨(384 * i + p'.val) % 768, Nat.mod_lt _ (by decide)⟩

theorem colOf_val (i : ℕ) (hi : i < 2) (p' : Fin 384) : (colOf i p').val = 384 * i + p'.val := by
  have := p'.isLt
  show (384 * i + p'.val) % 768 = _
  omega

/-- Band `k`'s share of the Gram entry at row `384·i + p'`, column `q`. -/
def bandTerm (X : (⟨2, ![16384, 768]⟩ : Shape).Idx → EReal) (i k : ℕ) (p' : Fin 384) (q : Fin 768) : EReal :=
  ∑ n' : Fin 4096, X (ValueIdx.ix2 (rowOf k n') (colOf i p')) * X (ValueIdx.ix2 (rowOf k n') q)

/-- The four bands' shares add up to the Gram entry. -/
theorem sum_bandTerm (X : (⟨2, ![16384, 768]⟩ : Shape).Idx → EReal) (i : ℕ) (p' : Fin 384) (q : Fin 768) :
    ∑ k ∈ Finset.range 4, bandTerm X i k p' q = ∑ n : Fin 16384, X (ValueIdx.ix2 n (colOf i p')) * X (ValueIdx.ix2 n q) :=
  sum_bands fun n => X (ValueIdx.ix2 n (colOf i p')) * X (ValueIdx.ix2 n q)

/-- The first closed form, over the matrix: `½·(S p q · 2⁻¹⁴) − ½`, the constants as the words that spell them. -/
def kernelVal (X : (⟨2, ![16384, 768]⟩ : Shape).Idx → EReal) (p q : Fin 768) : EReal :=
  Ideal.ofBits .f32 0x3F000000#32
      * ((∑ n : Fin 16384, X (ValueIdx.ix2 n p) * X (ValueIdx.ix2 n q)) * Ideal.ofBits .f32 0x38800000#32)
    - Ideal.ofBits .f32 0x3F000000#32

/-! ## Sums of real products stay real -/

theorem coe_sum {ι : Type*} (s : Finset ι) (a : ι → ℝ) : (∑ i ∈ s, ((a i : ℝ) : EReal)) = ((∑ i ∈ s, a i : ℝ) : EReal) := by
  classical
  induction s using Finset.induction_on with
  | empty => simp
  | insert i s hi ih => rw [Finset.sum_insert hi, Finset.sum_insert hi, ih, EReal.coe_add]

/-- A Gram entry of a real matrix is real. -/
theorem gram_real {ι : Type*} (s : Finset ι) (u v : ι → EReal) (a b : ι → ℝ) (hu : ∀ i, u i = (a i : EReal)) (hv : ∀ i, v i = (b i : EReal)) :
    ∑ i ∈ s, u i * v i = ((∑ i ∈ s, a i * b i : ℝ) : EReal) := by
  rw [← coe_sum]
  exact Finset.sum_congr rfl fun i _ => by rw [hu i, hv i, EReal.coe_mul]

/-! ## The two closed forms agree on the reals -/

/-- `½·(g·2⁻¹⁴) − ½ = ½·(g/16384 − d) + ½·(d − 1)` for real `g`, `d`. -/
theorem mix_real (g d : ℝ) :
    ((1 / 2 : ℝ) : EReal) * ((g : EReal) * ((1 / 16384 : ℝ) : EReal)) - ((1 / 2 : ℝ) : EReal)
      = ((1 / 2 : ℝ) : EReal) * (Ideal.div (g : EReal) ((16384 : ℝ) : EReal) - (d : EReal))
        + ((1 / 2 : ℝ) : EReal) * ((d : EReal) - ((1 : ℝ) : EReal)) := by
  rw [Ideal.div_coe (by norm_num : (16384 : ℝ) ≠ 0)]
  simp only [← EReal.coe_mul, ← EReal.coe_sub, ← EReal.coe_add]
  congr 1
  ring

end Cert.GramSpec

end
-- ==== Proof.AccumAt.lean ====
/-
  The accumulator read at an index, at the ideal values.

  Window 0's block at point t is the band of rows 4096·(t % 4) … 4096·(t % 4) + 4095 of the matrix, all 768 columns.
  A step at point t therefore adds to the accumulator entry (p', q) band t % 4's share of the Gram entry at row
  384·(t / 4) + p', column q.  Along a row of the grid the accumulator starts from 0 at band 0, so after point n it
  holds the sum of the shares of bands 0 … n % 4 of row-block n / 4: by induction on n.
-/
import proofs.«152765_j67310727463545_2_alg».proof.Proof.Accum
import proofs.«152765_j67310727463545_2_alg».proof.Proof.StepAt
import proofs.«152765_j67310727463545_2_alg».proof.Proof.Spec

noncomputable section

open Idealize.ShloMosaic Idealize.ShloMosaic.TcCoe Idealize.SL.Sem

namespace Cert.KernelIdeal.AccumAt

open Cert.KernelIdeal Cert.KernelIdeal.Gen Cert.KernelIdeal.Pieces Cert.KernelIdeal.Accum Cert.KernelIdeal.StepAt
open Cert.GramSpec Idealize.ShloMosaic.ValueIdx

variable (m : (ℓ : Loc nD τ sig) → Buf (Elt Ideal) ℓ)

/-- Where the grid's point t sits: window 0 reads band t % 4, all columns; the grid row is t / 4. -/
theorem idx_facts : ∀ t : Fin grid0.N,
    win0_0.index t 0 = t.val % 4 ∧ win0_0.index t 1 = 0 ∧ (grid0.coords t 0).val = t.val / 4 := by decide +kernel

/-- Window 0's block at point t, at row n' and column q, is the matrix at row 4096·(t % 4) + n', column q. -/
theorem iblk_apply (c : Dev nD) (t : Fin cfg0.N) (n' : Fin 4096) (q : Fin 768) :
    (iblk m c 0 t : Vec Ideal S4096x768 .f32) (ix2 n' q) = V m c main_v0 (ix2 (rowOf (t.val % 4) n') q) := by
  have hN : t.val < 8 := lt_of_lt_of_eq t.isLt (show cfg0.N = 8 from N_0)
  obtain ⟨h0, h1, -⟩ := idx_facts t
  unfold iblk
  rw [View.read_apply]
  show V m c main_v0 _ = V m c main_v0 _
  refine congrArg _ (funext fun a => Fin.ext ?_)
  match a with
  | ⟨0, _⟩ =>
    show win0_0.index t 0 * 4096 + 1 * n'.val = (rowOf (t.val % 4) n').val
    rw [h0, rowOf_val _ (by omega)]; omega
  | ⟨1, _⟩ =>
    show win0_0.index t 1 * 768 + 1 * q.val = q.val
    rw [h1]; omega

/-- A step at point t adds, at (p', q), band t % 4's share of the Gram entry of row-block t / 4. -/
theorem step_at (c : Dev nD) (t : Fin cfg0.N) (a : Vec Ideal S384x768 .f32) (p' : Fin 384) (q : Fin 768) :
    step (F := Ideal) (grid0.coords t) (iblk m c 0 t) a (ix2 p' q)
      = a (ix2 p' q) + bandTerm (V m c main_v0) (t.val / 4) (t.val % 4) p' q := by
  have hN : t.val < 8 := lt_of_lt_of_eq t.isLt (show cfg0.N = 8 from N_0)
  obtain ⟨-, -, h2⟩ := idx_facts t
  have hp : 384 * (grid0.coords t 0).val + p'.val < 768 := by rw [h2]; have := p'.isLt; omega
  have hcol : (⟨384 * (grid0.coords t 0).val + p'.val, hp⟩ : Fin 768) = colOf (t.val / 4) p' :=
    Fin.ext (by
      rw [colOf_val _ (by omega)]
      show 384 * (grid0.coords t 0).val + p'.val = _
      rw [h2])
  refine (step_apply (grid0.coords t) (iblk m c 0 t) a p' q hp).trans ?_
  refine congrArg (a (ix2 p' q) + ·) ?_
  unfold bandTerm
  refine Finset.sum_congr rfl fun n' _ => ?_
  refine (congrArg₂ (fun a b : EReal => a * b) (iblk_apply m c t n' ⟨_, hp⟩) (iblk_apply m c t n' q)).trans ?_
  rw [hcol]

/-- At the first band of a row of the grid the accumulator is that band's share alone. -/
theorem first_apply (c : Dev nD) (n : ℕ) (h : n < cfg0.N) (h0 : n % 4 = 0) (p' : Fin 384) (q : Fin 768) :
    acc m c n h (ix2 p' q) = ∑ k ∈ Finset.range (n % 4 + 1), bandTerm (V m c main_v0) (n / 4) k p' q := by
  rw [acc_first m c n h h0]
  refine (step_at m c ⟨n, h⟩ (k0_pay1 (F := Ideal)) p' q).trans ?_
  rw [zero_apply, ofBits_zero, zero_add]
  show bandTerm (V m c main_v0) (n / 4) (n % 4) p' q = _
  rw [h0, Finset.sum_range_one]

/-- After point n the accumulator holds the shares of bands 0 … n % 4 of row-block n / 4. -/
theorem acc_apply (c : Dev nD) (n : ℕ) (h : n < cfg0.N) (p' : Fin 384) (q : Fin 768) :
    acc m c n h (ix2 p' q) = ∑ k ∈ Finset.range (n % 4 + 1), bandTerm (V m c main_v0) (n / 4) k p' q := by
  induction n with
  | zero => exact first_apply m c 0 h (Nat.zero_mod _) p' q
  | succ n ih =>
    by_cases h0 : (n + 1) % 4 = 0
    · exact first_apply m c (n + 1) h h0 p' q
    · have hN : n + 1 < 8 := lt_of_lt_of_eq h (show cfg0.N = 8 from N_0)
      have e1 : (n + 1) % 4 = n % 4 + 1 := by omega
      have e2 : (n + 1) / 4 = n / 4 := by omega
      rw [acc_next m c n h h0]
      refine (step_at m c ⟨n + 1, h⟩ (acc m c n (Nat.lt_of_succ_lt h)) p' q).trans ?_
      rw [ih (Nat.lt_of_succ_lt h)]
      show (∑ k ∈ Finset.range (n % 4 + 1), bandTerm (V m c main_v0) (n / 4) k p' q)
          + bandTerm (V m c main_v0) ((n + 1) / 4) ((n + 1) % 4) p' q = _
      rw [e1, e2]
      exact (Finset.sum_range_succ (fun k => bandTerm (V m c main_v0) (n / 4) k p' q) (n % 4 + 1)).symm

end Cert.KernelIdeal.AccumAt

end
-- ==== Proof.Blocks.lean ====
/-
  From blocks to the array.

  The output is written back twice, once per row of the grid, at the last band: point 4·i + 3 writes rows
  384·i … 384·i + 383, all 768 columns.  What it writes is the epilogue of the accumulator, and the accumulator
  after the fourth band is the whole Gram sum (the four bands' shares), so the block is the restriction of one
  function of the matrix; the two blocks cover the array.
-/
import proofs.«152765_j67310727463545_2_alg».proof.Proof.AccumAt
import proofs.«152765_j67310727463545_2_alg».proof.Proof.Gen.KernelIdeal.Value
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.GramSpec Idealize.ShloMosaic.ValueIdx

variable (m : (ℓ : Loc nD τ sig) → Buf (Elt Ideal) ℓ) (ρ : Dev nD → PrngReg)

/-- The output array as one function of the matrix the region finds. -/
abbrev result (c : Dev nD) : S768x768.Idx → EReal := fun j => kernelVal (V m c main_v0) (j 0) (j 1)

/-- The output window's block index at point `t`: row-block `t / 4`, the one column block. -/
theorem out_index : ∀ t : Fin cfg0.N, win0_1.index t (0 : Fin 2) = t.val / 4 ∧ win0_1.index t (1 : Fin 2) = 0 :=
  (by decide +kernel : ∀ t : Fin grid0.N, win0_1.index t (0 : Fin 2) = t.val / 4 ∧ win0_1.index t (1 : Fin 2) = 0)

/-- What a writing point writes back is its block of `result`. -/
theorem flushed_eq (c : Dev nD) (t : Fin cfg0.N) (hf : (cfg0.win 1).flush t = true) :
    (dats m 0 c).flushed 1 t = ((cfg0.win 1).blk t).view.read (Elt Ideal) (result m c) := by
  have h1 : t.val % 4 = 3 := (flush0_1 t).mp hf
  have hN : t.val < 8 := lt_of_lt_of_eq t.isLt (show cfg0.N = 8 from N_0)
  obtain ⟨e0, e1⟩ := out_index t
  rw [Value.flushed1, Accum.out_eq m c t h1]
  funext y
  obtain ⟨p', q, rfl⟩ : ∃ (p' : Fin 384) (q : Fin 768), y = ix2 p' q := ⟨y 0, y 1, eq_ix2 y⟩
  show k0_pay3 (Accum.acc m c t.val t.isLt) (ix2 p' q)
    = kernelVal (V m c main_v0) (((cfg0.win 1).blk t).view.emb (ix2 p' q) 0) (((cfg0.win 1).blk t).view.emb (ix2 p' q) 1)
  have hp : ((cfg0.win 1).blk t).view.emb (ix2 p' q) 0 = colOf (t.val / 4) p' := Fin.ext (by
    show win0_1.index t (0 : Fin 2) * 384 + 1 * p'.val = (colOf (t.val / 4) p').val
    rw [e0, colOf_val _ (by omega)]; omega)
  have hq : ((cfg0.win 1).blk t).view.emb (ix2 p' q) 1 = q := Fin.ext (by
    show win0_1.index t (1 : Fin 2) * 768 + 1 * q.val = q.val
    rw [e1]; omega)
  rw [hp, hq, StepAt.epilogue_apply, AccumAt.acc_apply m c t.val t.isLt p' q, h1, sum_bandTerm]
  rfl

/-- An index is in point `t`'s block iff each coordinate is in the block's range on its axis. -/
theorem mem_blk (t : Fin cfg0.N) (i : S768x768.Idx) :
    i ∈ ((cfg0.win 1).blk t).view.set ↔ ∀ a : Fin 2, win0_1.index t a * S384x768.size a ≤ (i a).val
      ∧ (i a).val < win0_1.index t a * S384x768.size a + S384x768.size a := by
  show i ∈ ((View.whole main_v1).slice (win0_1.rect t)).set ↔ _
  rw [View.set_slice_whole, Rect.mem_set_unit]
  exact Iff.rfl

/-- Row `r` is written by the last point of row-block `r / 384`. -/
theorem cover (i : S768x768.Idx) : ∃ t : Fin cfg0.N, (cfg0.win 1).flush t = true ∧ i ∈ ((cfg0.win 1).blk t).view.set := by
  have hi0 : (i 0).val < 768 := (i 0).isLt
  have hi1 : (i 1).val < 768 := (i 1).isLt
  have hN : cfg0.N = 8 := N_0
  have hlt : 4 * ((i 0).val / 384) + 3 < cfg0.N := by rw [hN]; omega
  obtain ⟨e0, e1⟩ := out_index ⟨4 * ((i 0).val / 384) + 3, hlt⟩
  refine ⟨⟨4 * ((i 0).val / 384) + 3, hlt⟩, (flush0_1 _).mpr (by show (4 * ((i 0).val / 384) + 3) % 4 = 3; omega), ?_⟩
  rw [mem_blk]
  intro a
  match a with
  | ⟨0, _⟩ =>
    show win0_1.index ⟨4 * ((i 0).val / 384) + 3, hlt⟩ (0 : Fin 2) * 384 ≤ (i 0).val
      ∧ (i 0).val < win0_1.index ⟨4 * ((i 0).val / 384) + 3, hlt⟩ (0 : Fin 2) * 384 + 384
    rw [e0]; show (4 * ((i 0).val / 384) + 3) / 4 * 384 ≤ (i 0).val ∧ (i 0).val < (4 * ((i 0).val / 384) + 3) / 4 * 384 + 384
    omega
  | ⟨1, _⟩ =>
    show win0_1.index ⟨4 * ((i 0).val / 384) + 3, hlt⟩ (1 : Fin 2) * 768 ≤ (i 1).val
      ∧ (i 1).val < win0_1.index ⟨4 * ((i 0).val / 384) + 3, hlt⟩ (1 : Fin 2) * 768 + 768
    rw [e1]; omega

/-- So the output array ends holding `result`. -/
theorem final (c : Dev nD) : (dats m 0 c).arrAt 1 cfg0.N = result m c :=
  (dats m 0 c).arrAt_eq_of_cover 1 (result m c) (flushed_eq m c) cover

/-- The matrix the region finds is the argument, reshaped to 16384 rows. -/
theorem V_rows (c : Dev nD) : (V m c main_v0 : S16384x768.Idx → EReal)
    = shapeCast S16384x768 (m ((c : Thread nD τ).loc main_arg0)) Facts₀.shapeCasts_S8x2048x768_S16384x768 := by
  dsimp only [Gen.V, Gen.hostOps0]; after_results; rfl

/-- The run, read: the output array at the closed form of the reshaped argument, the argument unchanged. -/
theorem run : θ_run defs (onTc (τ := τ) (main (F := Ideal))) ⟨m, fun _ => 0, ρ⟩ fun r => ∀ c : Dev nD,
      r.2.mem ((c : Thread nD τ).loc main_v1)
        = (fun j => kernelVal (shapeCast S16384x768 (m ((c : Thread nD τ).loc main_arg0)) Facts₀.shapeCasts_S8x2048x768_S16384x768) (j 0) (j 1))
      ∧ r.2.mem ((c : Thread nD τ).loc main_arg0) = m ((c : Thread nD τ).loc main_arg0) :=
  (θ_run defs _ _).mono (fun r h c => ⟨(h c).1.trans ((final m c).trans
      (congrArg (fun (X : S16384x768.Idx → EReal) (j : S768x768.Idx) => kernelVal X (j 0) (j 1)) (V_rows m c))), (h c).2⟩)
    (Value.run_blocks m ρ)

end Cert.KernelIdeal.Blocks

end
-- ==== Proof.RefRun.lean ====
import proofs.«152765_j67310727463545_2_alg».proof.Proof.Gen.ReferenceIdeal
import Idealize.ShloMosaic.Lib.StableHlo.Run

/-!
# The reference's run

The reference function is a straight line of thirty-five host operations once its two private
functions are unfolded at their call sites (the diagonal builder: eleven operations, among them the
masked selection's three). Its run leaves the result buffer at the operations' composed pure term
`refTerm` of the argument's launch contents, and the argument unchanged.
-/

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-! ## The composed term -/

/-- The argument read as a matrix of 16384 rows and 768 columns. -/
def rows (x : FVec F S8x2048x768 .f32) : FVec F S16384x768 .f32 :=
  shapeCast S16384x768 x Facts₀.shapeCasts_S8x2048x768_S16384x768

/-- The Gram matrix of the columns, Xᵀ X, each entry divided by the row count 16384. -/
def gram (x : FVec F S8x2048x768 .f32) : FVec F S768x768 .f32 :=
  Host.divf (Host.dotGeneral dot_S16384x768_S16384x768_S768x768_0_0_1_1_n_n none (rows x) (rows x))
    (broadcastInDim S768x768 ![] Facts₀.bcast_S_S768x768 (constant S_ .f32 0x46800000#32))

/-- Each column's mean square: the sum of the squares down the rows, from zero, divided by 16384. -/
def meanSq (x : FVec F S8x2048x768 .f32) : FVec F S768 .f32 :=
  Host.divf (Host.reduceAdd (mulf (rows x) (rows x)) (constant S_ .f32 0x00000000#32) Facts₀.reducesTo_S16384x768_S768_d0 Facts₀.h_S_)
    (broadcastInDim S768 ![] Facts₀.bcast_S_S768 (constant S_ .f32 0x46800000#32))

/-- The mask of the diagonal: the row index (plus a zero offset) compared with the column index. -/
def diagMask : IVec S768x768 1 :=
  cmpi .eq (addi (iotaInDim S768x768 32 0) (broadcastInDim S768x768 ![] Facts₀.bcast_S_S768x768 (constantI S_ 32 0#32)))
    (iotaInDim S768x768 32 1)

/-- The diagonal matrix of a vector: the vector (padded by nothing) as a column, broadcast along the
    rows, kept on the diagonal and replaced by zero off it. -/
def diagOf (v : FVec F S768 .f32) : FVec F S768x768 .f32 :=
  select diagMask
    (broadcastInDim S768x768 ![0, 1] Facts₀.bcast_S768x1_S768x768_0_1
      (broadcastInDim S768x1 ![0] Facts₀.bcast_S768_S768x1_0
        (pad S768 ![0] ![0] ![0] v (constant S_ .f32 0x00000000#32) Facts₀.pads_S768_S768_000 Facts₀.h_S_)))
    (broadcastInDim S768x768 ![] Facts₀.bcast_S_S768x768 (constant S_ .f32 0x00000000#32))

/-- The reference's value: with G the scaled Gram matrix and D the diagonal matrix of the mean
    squares, one half of (G − D) plus one half of (D − 1). -/
def refTerm (x : FVec F S8x2048x768 .f32) : FVec F S768x768 .f32 :=
  addf
    (mulf (broadcastInDim S768x768 ![] Facts₀.bcast_S_S768x768 (constant S_ .f32 0x3F000000#32))
      (subf (gram x) (diagOf (meanSq x))))
    (mulf (broadcastInDim S768x768 ![] Facts₀.bcast_S_S768x768 (constant S_ .f32 0x3F000000#32))
      (subf (diagOf (meanSq x)) (broadcastInDim S768x768 ![] Facts₀.bcast_S_S768x768 (constant S_ .f32 0x3F800000#32))))

/-! ## The operations -/

/-- The reference's thirty-five operations in order, the two private functions unfolded at their calls:
    eleven of the entry function, the diagonal builder's ten, the masked selection's three, and the entry
    function's last eleven. -/
abbrev ops : List (HloOp τ sig (Elt F)) :=
  [ reshape main_arg0 main_v0 rfl Facts₀.shapeCasts_S8x2048x768_S16384x768,
    binary main_v0 main_v0 main_v1 ((fun l r => Host.dotGeneral dot_S16384x768_S16384x768_S768x768_0_0_1_1_n_n none l r) : (⟨S16384x768, .f32⟩ : BufTy).Contents (Elt F) → (⟨S16384x768, .f32⟩ : BufTy).Contents (Elt F) → (⟨S768x768, .f32⟩ : BufTy).Contents (Elt F)),
    nullary main_cst (constant S_ .f32 0x46800000#32),
    unary main_cst main_v2 (broadcastInDim S768x768 ![] Facts₀.bcast_S_S768x768 : (⟨S_, .f32⟩ : BufTy).Contents (Elt F) → (⟨S768x768, .f32⟩ : BufTy).Contents (Elt F)),
    binary main_v1 main_v2 main_v3 (Host.divf : (⟨S768x768, .f32⟩ : BufTy).Contents (Elt F) → (⟨S768x768, .f32⟩ : BufTy).Contents (Elt F) → (⟨S768x768, .f32⟩ : BufTy).Contents (Elt F)),
    binary main_v0 main_v0 main_v4 (mulf : (⟨S16384x768, .f32⟩ : BufTy).Contents (Elt F) → (⟨S16384x768, .f32⟩ : BufTy).Contents (Elt F) → (⟨S16384x768, .f32⟩ : BufTy).Contents (Elt F)),
    nullary main_cst_0 (constant S_ .f32 0x00000000#32),
    binary main_v4 main_cst_0 main_v5 ((fun x v => Host.reduceAdd x v Facts₀.reducesTo_S16384x768_S768_d0 Facts₀.h_S_) : (⟨S16384x768, .f32⟩ : BufTy).Contents (Elt F) → (⟨S_, .f32⟩ : BufTy).Contents (Elt F) → (⟨S768, .f32⟩ : BufTy).Contents (Elt F)),
    nullary main_cst_1 (constant S_ .f32 0x46800000#32),
    unary main_cst_1 main_v6 (broadcastInDim S768 ![] Facts₀.bcast_S_S768 : (⟨S_, .f32⟩ : BufTy).Contents (Elt F) → (⟨S768, .f32⟩ : BufTy).Contents (Elt F)),
    binary main_v5 main_v6 main_v7 (Host.divf : (⟨S768, .f32⟩ : BufTy).Contents (Elt F) → (⟨S768, .f32⟩ : BufTy).Contents (Elt F) → (⟨S768, .f32⟩ : BufTy).Contents (Elt F)),
    TRef.nullary main_call0.cst (constant S_ .f32 0x00000000#32),
    TRef.binary (.of main_v7) main_call0.cst main_call0.v0 (fun x v => pad S768 ![0] ![0] ![0] x v Facts₀.pads_S768_S768_000 Facts₀.h_S_),
    TRef.nullary main_call0.v1 (iotaInDim S768x768 32 0),
    TRef.nullary main_call0.v2 (iotaInDim S768x768 32 1),
    TRef.nullary main_call0.c (constantI S_ 32 0#32),
    TRef.unary main_call0.c main_call0.v3 (broadcastInDim S768x768 ![] Facts₀.bcast_S_S768x768),
    TRef.binary main_call0.v1 main_call0.v3 main_call0.v4 addi,
    TRef.binary main_call0.v4 main_call0.v2 main_call0.v5 (cmpi .eq),
    TRef.unary main_call0.v0 main_call0.v6 (broadcastInDim S768x1 ![0] Facts₀.bcast_S768_S768x1_0),
    TRef.nullary main_call0.cst_0 (constant S_ .f32 0x00000000#32),
    TRef.unary main_call0.v6 main_call0.call0.v0 (broadcastInDim S768x768 ![0, 1] Facts₀.bcast_S768x1_S768x768_0_1),
    TRef.unary main_call0.cst_0 main_call0.call0.v1 (broadcastInDim S768x768 ![] Facts₀.bcast_S_S768x768),
    TRef.ternary main_call0.v5 main_call0.call0.v0 main_call0.call0.v1 main_call0.call0.v2 select,
    binary main_v3 main_v8 main_v9 (subf : (⟨S768x768, .f32⟩ : BufTy).Contents (Elt F) → (⟨S768x768, .f32⟩ : BufTy).Contents (Elt F) → (⟨S768x768, .f32⟩ : BufTy).Contents (Elt F)),
    nullary main_cst_2 (constant S_ .f32 0x3F000000#32),
    unary main_cst_2 main_v10 (broadcastInDim S768x768 ![] Facts₀.bcast_S_S768x768 : (⟨S_, .f32⟩ : BufTy).Contents (Elt F) → (⟨S768x768, .f32⟩ : BufTy).Contents (Elt F)),
    binary main_v10 main_v9 main_v11 (mulf : (⟨S768x768, .f32⟩ : BufTy).Contents (Elt F) → (⟨S768x768, .f32⟩ : BufTy).Contents (Elt F) → (⟨S768x768, .f32⟩ : BufTy).Contents (Elt F)),
    nullary main_cst_3 (constant S_ .f32 0x3F800000#32),
    unary main_cst_3 main_v12 (broadcastInDim S768x768 ![] Facts₀.bcast_S_S768x768 : (⟨S_, .f32⟩ : BufTy).Contents (Elt F) → (⟨S768x768, .f32⟩ : BufTy).Contents (Elt F)),
    binary main_v8 main_v12 main_v13 (subf : (⟨S768x768, .f32⟩ : BufTy).Contents (Elt F) → (⟨S768x768, .f32⟩ : BufTy).Contents (Elt F) → (⟨S768x768, .f32⟩ : BufTy).Contents (Elt F)),
    nullary main_cst_4 (constant S_ .f32 0x3F000000#32),
    unary main_cst_4 main_v14 (broadcastInDim S768x768 ![] Facts₀.bcast_S_S768x768 : (⟨S_, .f32⟩ : BufTy).Contents (Elt F) → (⟨S768x768, .f32⟩ : BufTy).Contents (Elt F)),
    binary main_v14 main_v13 main_v15 (mulf : (⟨S768x768, .f32⟩ : BufTy).Contents (Elt F) → (⟨S768x768, .f32⟩ : BufTy).Contents (Elt F) → (⟨S768x768, .f32⟩ : BufTy).Contents (Elt F)),
    binary main_v11 main_v15 main_v16 (addf : (⟨S768x768, .f32⟩ : BufTy).Contents (Elt F) → (⟨S768x768, .f32⟩ : BufTy).Contents (Elt F) → (⟨S768x768, .f32⟩ : BufTy).Contents (Elt F)) ]

-- thirty-five binds re-associated: the rewrite under the chain recurses once per statement
set_option maxRecDepth 2048 in
/-- The entry function is that straight line: the private functions' definitions unfolded at their
    calls, both sides are one chain of steps once sequencing is reassociated. -/
theorem main_eq (c : Dev nD) : main (F := F) c = seq ops := by
  simp only [main, fn_diag.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., binary_bufs_sub .., nullary_bufs_sub .., unary_bufs_sub .., binary_bufs_sub .., binary_bufs_sub ..,
    nullary_bufs_sub .., binary_bufs_sub .., nullary_bufs_sub .., unary_bufs_sub .., binary_bufs_sub ..,
    nullary_bufs_sub .., binary_bufs_sub .., nullary_bufs_sub .., nullary_bufs_sub .., nullary_bufs_sub .., unary_bufs_sub ..,
    binary_bufs_sub .., binary_bufs_sub .., unary_bufs_sub .., nullary_bufs_sub ..,
    unary_bufs_sub .., unary_bufs_sub .., ternary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., binary_bufs_sub ..⟩

/-- The fold of the operations at the result buffer is the composed term of the argument's contents. -/
theorem out_eq (V : Valuation τ sig (Elt F)) :
    after ops V (main_v16 : DevRef τ sig) = refTerm (V (main_arg0 : DevRef τ sig)) := by
  after_results_simp
  rfl

/-- No operation writes the argument. -/
theorem arg0_eq (V : Valuation τ sig (Elt F)) :
    after ops V (main_arg0 : DevRef τ sig) = V (main_arg0 : DevRef τ sig) := by
  after_results_simp

/-- On the one device, for any float values, from any memory with zero counters: every weakly fair
    execution of the reference terminates with the result at the composed term of the argument and the
    argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v16).trans (out_eq _), (h c main_arg0).trans (arg0_eq _)⟩)
    (run_seq scopedRefs_eq scopedSems_eq defs main (fun _ => ops) main_eq (fun _ => ops_sub) m ρ)

end Cert.ReferenceIdeal.RefValue

end
-- ==== Proof.RefRead.lean ====
import proofs.«152765_j67310727463545_2_alg».proof.Proof.RefRun
import Idealize.ShloMosaic.Lib.KernelVsHost
import Idealize.ShloMosaic.Lib.ValueLayout

/-!
# The reference's value read at an entry

At the extended reals the composed term of the reference's run is read at an entry (p, q) of the
768 × 768 result as a closed formula over the argument seen as a matrix X of 16384 rows and 768
columns: with N the row count, G = (∑ₙ X[n,p]·X[n,q]) / N the scaled Gram entry and
D = (0 + ∑ₙ X[n,p]²) / N on the diagonal and zero off it, the value is ½·(G − D) + ½·(D − 1).
The four float constants stay the words the program writes; the reshape of the argument to X
stays folded.
-/

noncomputable section

open scoped BigOperators

namespace Cert.ReferenceIdeal.RefValue

open Cert.ReferenceIdeal Cert.ReferenceIdeal.Gen Idealize.ShloMosaic Idealize.ShloMosaic.ValueIdx

/-- The argument as a matrix of 16384 rows and 768 columns: the same elements in row-major order. -/
abbrev X (x : FVec Ideal S8x2048x768 .f32) : FVec Ideal S16384x768 .f32 :=
  shapeCast S16384x768 x Facts₀.shapeCasts_S8x2048x768_S16384x768

/-- The run's reshaped argument is that matrix. -/
theorem rows_eq (x : FVec Ideal S8x2048x768 .f32) : rows x = X x := rfl

/-- The Gram product read at an entry: the sum down the rows of the products of the two columns. -/
theorem dot_apply (A : FVec Ideal S16384x768 .f32) (p q : Fin 768) :
    Host.dotGeneral (F := Ideal) dot_S16384x768_S16384x768_S768x768_0_0_1_1_n_n none A A (ix2 p q)
      = ∑ n : Fin 16384, A (ix2 n p) * A (ix2 n q) := by
  show FloatOps.dotGeneral _ none _ A A (ix2 p q) = _
  rw [Ideal.dotGeneral_apply,
    ← Equiv.sum_comp (contrEquiv1 dot_S16384x768_S16384x768_S768x768_0_0_1_1_n_n 16384 rfl rfl).symm]
  refine Finset.sum_congr rfl fun c _ => ?_
  have c2 := contrEquiv1_symm_val dot_S16384x768_S16384x768_S768x768_0_0_1_1_n_n 16384 rfl rfl c
  have l2 : dot_S16384x768_S16384x768_S768x768_0_0_1_1_n_n.lhsIdx (ix2 p q) ((contrEquiv1 _ 16384 rfl rfl).symm c) = ix2 c p := by
    funext ax; apply Fin.ext
    match ax with
    | ⟨0, _⟩ => simp [DotDims.lhsIdx, dot_S16384x768_S16384x768_S768x768_0_0_1_1_n_n]; exact c2
    | ⟨1, _⟩ => simp [DotDims.lhsIdx, dot_S16384x768_S16384x768_S768x768_0_0_1_1_n_n]; rfl
  have r2 : dot_S16384x768_S16384x768_S768x768_0_0_1_1_n_n.rhsIdx (ix2 p q) ((contrEquiv1 _ 16384 rfl rfl).symm c) = ix2 c q := by
    funext ax; apply Fin.ext
    match ax with
    | ⟨0, _⟩ => simp [DotDims.rhsIdx, dot_S16384x768_S16384x768_S768x768_0_0_1_1_n_n]; exact c2
    | ⟨1, _⟩ => simp [DotDims.rhsIdx, dot_S16384x768_S16384x768_S768x768_0_0_1_1_n_n]; rfl
  rw [l2, r2]

/-- The column sums of the squares, from the initial value, read at a column. -/
theorem colSq_apply (A : FVec Ideal S16384x768 .f32) (p : Fin 768) :
    Host.reduceAdd (F := Ideal) (mulf A A) (constant S_ .f32 0x00000000#32) Facts₀.reducesTo_S16384x768_S768_d0 Facts₀.h_S_ (ix1 p)
      = Ideal.ofBits .f32 0x00000000#32 + ∑ n : Fin 16384, A (ix2 n p) * A (ix2 n p) := by
  have h : S16384x768.Reduces [0] S768 := by decide
  show Ideal.hostReduceAdd Facts₀.reducesTo_S16384x768_S768_d0 (mulf A A) (Ideal.ofBits .f32 0x00000000#32) (ix1 p) = _
  rw [Ideal.hostReduceAdd_single Facts₀.reducesTo_S16384x768_S768_d0 h]
  refine congrArg (Ideal.ofBits .f32 0x00000000#32 + ·) ?_
  show ∑ n : Fin 16384, mulf A A (h.lift (ix1 p) n) = _
  refine Finset.sum_congr rfl fun n _ => ?_
  have hl : h.lift (ix1 p) n = ix2 n p := by
    funext ax; apply Fin.ext
    match ax with
    | ⟨0, _⟩ => rfl
    | ⟨1, _⟩ => rfl
  rw [hl]; rfl

/-- A vector padded by nothing is the vector. -/
theorem pad_none_apply (v : FVec Ideal S768 .f32) (z : FVec Ideal S_ .f32) (p : Fin 768) :
    pad S768 ![0] ![0] ![0] v z Facts₀.pads_S768_S768_000 Facts₀.h_S_ (ix1 p) = v (ix1 p) :=
  pad_apply_of_inside _ _ _ v z Facts₀.pads_S768_S768_000 Facts₀.h_S_ (ix1 p) (ix1 p) (fun a => by
    match a with
    | ⟨0, _⟩ => show p.val = 0 + p.val * (0 + 1); omega)

/-- A vector as a column, broadcast along the rows, reads at (p, q) its entry p. -/
theorem column_apply (v : FVec Ideal S768 .f32) (p q : Fin 768) :
    broadcastInDim S768x768 ![0, 1] Facts₀.bcast_S768x1_S768x768_0_1
      (broadcastInDim S768x1 ![0] Facts₀.bcast_S768_S768x1_0 v) (ix2 p q) = v (ix1 p) := by
  refine (broadcastInDim_apply _ _ _ (ix2 p q) (ix2 p (0 : Fin 1)) (fun a => by
    match a with
    | ⟨0, _⟩ => rfl
    | ⟨1, _⟩ => rfl)).trans ?_
  exact broadcastInDim_apply _ _ _ (ix2 p (0 : Fin 1)) (ix1 p) (fun a => by
    match a with
    | ⟨0, _⟩ => rfl)

/-- Two numbers below 768 are the same 32-bit word exactly when they are equal. -/
theorem word_eq_iff (p q : Fin 768) : BitVec.ofNat 32 p.val = BitVec.ofNat 32 q.val ↔ p = q := by
  constructor
  · intro h
    have := congrArg BitVec.toNat h
    simp only [BitVec.toNat_ofNat] at this
    have hp := p.isLt; have hq := q.isLt
    exact Fin.ext (by omega)
  · rintro rfl; rfl

/-- The diagonal's mask at (p, q) is set exactly when p = q. -/
theorem diagMask_apply (p q : Fin 768) : diagMask (ix2 p q) = 1 ↔ p = q := by
  show IntOp.cmpi .eq (IntOp.addi (BitVec.ofNat 32 p.val) 0#32) (BitVec.ofNat 32 q.val) = 1 ↔ _
  rw [← word_eq_iff]
  simp only [IntOp.cmpi, IntOp.addi, BitVec.add_zero]
  generalize BitVec.ofNat 32 p.val = a
  generalize BitVec.ofNat 32 q.val = b
  by_cases h : a = b
  · subst h; simp
  · have hb : (a == b) = false := beq_eq_false_iff_ne.mpr h
    constructor
    · intro h1; rw [hb] at h1; exact absurd h1 (by decide)
    · intro h1; exact absurd h1 h

/-- The scaled Gram matrix read at an entry. -/
theorem gram_apply (x : FVec Ideal S8x2048x768 .f32) (p q : Fin 768) :
    gram x (ix2 p q)
      = Ideal.div (∑ n : Fin 16384, X x (ix2 n p) * X x (ix2 n q)) (Ideal.ofBits .f32 0x46800000#32) := by
  show Ideal.div (Host.dotGeneral (F := Ideal) dot_S16384x768_S16384x768_S768x768_0_0_1_1_n_n none (X x) (X x) (ix2 p q))
      (Ideal.ofBits .f32 0x46800000#32) = _
  rw [dot_apply]

/-- A column's mean square. -/
theorem meanSq_apply (x : FVec Ideal S8x2048x768 .f32) (p : Fin 768) :
    meanSq x (ix1 p)
      = Ideal.div (Ideal.ofBits .f32 0x00000000#32 + ∑ n : Fin 16384, X x (ix2 n p) * X x (ix2 n p))
          (Ideal.ofBits .f32 0x46800000#32) := by
  show Ideal.div (Host.reduceAdd (F := Ideal) (mulf (X x) (X x)) (constant S_ .f32 0x00000000#32)
      Facts₀.reducesTo_S16384x768_S768_d0 Facts₀.h_S_ (ix1 p)) (Ideal.ofBits .f32 0x46800000#32) = _
  rw [colSq_apply]

/-- The diagonal matrix of a vector read at an entry: the vector's entry on the diagonal, zero's word off it. -/
theorem diagOf_apply (v : FVec Ideal S768 .f32) (p q : Fin 768) :
    diagOf v (ix2 p q) = if p = q then v (ix1 p) else Ideal.ofBits .f32 0x00000000#32 := by
  show Scalar.select (diagMask (ix2 p q))
      (broadcastInDim S768x768 ![0, 1] Facts₀.bcast_S768x1_S768x768_0_1
        (broadcastInDim S768x1 ![0] Facts₀.bcast_S768_S768x1_0
          (pad S768 ![0] ![0] ![0] v (constant S_ .f32 0x00000000#32) Facts₀.pads_S768_S768_000 Facts₀.h_S_)) (ix2 p q))
      (Ideal.ofBits .f32 0x00000000#32) = _
  rw [column_apply, pad_none_apply]
  unfold Scalar.select
  by_cases h : p = q
  · rw [if_pos ((diagMask_apply p q).mpr h), if_pos h]
  · rw [if_neg (fun hm => h ((diagMask_apply p q).mp hm)), if_neg h]

/-- THE REFERENCE'S VALUE AT AN ENTRY (p, q): with G = (∑ₙ X[n,p]·X[n,q]) / N and D = (0 + ∑ₙ X[n,p]²) / N on the
    diagonal, zero off it: ½·(G − D) + ½·(D − 1), the four constants as their words. -/
theorem refTerm_apply (x : FVec Ideal S8x2048x768 .f32) (p q : Fin 768) :
    refTerm (F := Ideal) x (ix2 p q)
      = Ideal.ofBits .f32 0x3F000000#32
          * (Ideal.div (∑ n : Fin 16384, X x (ix2 n p) * X x (ix2 n q)) (Ideal.ofBits .f32 0x46800000#32)
              - (if p = q then
                  Ideal.div (Ideal.ofBits .f32 0x00000000#32 + ∑ n : Fin 16384, X x (ix2 n p) * X x (ix2 n p))
                    (Ideal.ofBits .f32 0x46800000#32)
                else Ideal.ofBits .f32 0x00000000#32))
        + Ideal.ofBits .f32 0x3F000000#32
          * ((if p = q then
                Ideal.div (Ideal.ofBits .f32 0x00000000#32 + ∑ n : Fin 16384, X x (ix2 n p) * X x (ix2 n p))
                  (Ideal.ofBits .f32 0x46800000#32)
              else Ideal.ofBits .f32 0x00000000#32)
              - Ideal.ofBits .f32 0x3F800000#32) := by
  show Ideal.ofBits .f32 0x3F000000#32 * (gram x (ix2 p q) - diagOf (meanSq x) (ix2 p q))
      + Ideal.ofBits .f32 0x3F000000#32 * (diagOf (meanSq x) (ix2 p q) - Ideal.ofBits .f32 0x3F800000#32) = _
  rw [gram_apply, diagOf_apply, meanSq_apply]

end Cert.ReferenceIdeal.RefValue

end
-- ==== Proof.Finite.lean ====
/-
  From the precondition to "every entry of the input is a real number".

  The precondition says that the conjunction, over all entries x of the input, of the comparison
  |x| < +∞ is true.  A conjunction that is true has every conjunct true, so |x| < +∞ holds at each
  entry; and an extended real x with max x (-x) < ⊤ is neither ⊤ nor ⊥, hence a real number.
-/
import proofs.«152765_j67310727463545_2_alg».proof.Defs
import proofs.«152765_j67310727463545_2_alg».proof.Proof.Gen.Pre_finite_inputs
import Idealize.ShloMosaic.Lib.ReduceAll
import Idealize.ShloMosaic.Lib.ValueIdx

noncomputable section

namespace Cert.Finite

open Idealize.ShloMosaic Idealize.SL.Sem

/-- The shape with no axes has exactly one index. -/
instance : Subsingleton Cert.Pre_finite_inputs.S_.Idx := ⟨fun a b => funext fun d => d.elim0⟩

/-- The f32 pattern of +∞ denotes the top of the extended reals. -/
theorem ofBits_inf : Ideal.ofBits .f32 0x7F800000#32 = (⊤ : EReal) := by
  simp [Ideal.ofBits, Ideal.ieee]

/-- An extended real whose absolute value max x (-x) compares below +∞ is a real number. -/
theorem real_of_abs_lt_inf (x : EReal)
    (h : Ideal.cmp .olt (max x (-x)) (Ideal.ofBits .f32 0x7F800000#32) = 1#1) :
    ∃ r : ℝ, x = (r : EReal) := by
  rw [ofBits_inf] at h
  unfold Ideal.cmp at h
  induction x using EReal.rec with
  | bot => simp at h
  | coe r => exact ⟨r, rfl⟩
  | top => simp at h

/-- Under the precondition every entry of the input array, on every device, is a real number. -/
theorem real_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S8x2048x768.Idx) :
    ∃ r : ℝ, m ((c.tc : Thread Cert.KernelIdeal.nD Cert.KernelIdeal.τ).loc Cert.KernelIdeal.main_arg0) i = (r : EReal) := by
  have h0 := congrFun (h c) ValueIdx.ix0
  dsimp only [Cert.Pre_finite_inputs.fn] at h0
  have h1 := Host.reduce_andi_all _ _ _ _ _ h0 i
  exact real_of_abs_lt_inf _ h1

end Cert.Finite

end
-- ==== Proof.Join.lean ====
/-
  The two closed forms are one function of a real matrix.

  With S = ∑ₙ X n p · X n q and T = ∑ₙ X n p · X n p, the second form reads
  ½·(S/16384 − D) + ½·(D − 1) with D = (0 + T)/16384 on the diagonal and 0 off it.  When the entries of X are
  real numbers so are S, T and D, the D terms cancel, and dividing by 16384 is multiplying by 2⁻¹⁴.
-/
import proofs.«152765_j67310727463545_2_alg».proof.Proof.Spec

noncomputable section

namespace Cert.GramSpec

open Idealize.ShloMosaic Idealize.ShloMosaic.ValueIdx

/-- The second closed form, over the matrix, the constants as the words that spell them. -/
def refVal (X : (⟨2, ![16384, 768]⟩ : Shape).Idx → EReal) (p q : Fin 768) : EReal :=
  Ideal.ofBits .f32 0x3F000000#32
      * (Ideal.div (∑ n : Fin 16384, X (ix2 n p) * X (ix2 n q)) (Ideal.ofBits .f32 0x46800000#32)
          - (if p = q then
              Ideal.div (Ideal.ofBits .f32 0x00000000#32 + ∑ n : Fin 16384, X (ix2 n p) * X (ix2 n p))
                (Ideal.ofBits .f32 0x46800000#32)
            else Ideal.ofBits .f32 0x00000000#32))
    + Ideal.ofBits .f32 0x3F000000#32
      * ((if p = q then
            Ideal.div (Ideal.ofBits .f32 0x00000000#32 + ∑ n : Fin 16384, X (ix2 n p) * X (ix2 n p))
              (Ideal.ofBits .f32 0x46800000#32)
          else Ideal.ofBits .f32 0x00000000#32)
          - Ideal.ofBits .f32 0x3F800000#32)

/-- A quotient of a real by 16384 is real. -/
theorem div_N_real (g : ℝ) : Ideal.div (g : EReal) ((16384 : ℝ) : EReal) = ((g * (1 / 16384) : ℝ) : EReal) := by
  rw [Ideal.div_coe (by norm_num : (16384 : ℝ) ≠ 0), EReal.coe_mul]

/-- For a matrix of real entries the two closed forms agree at every index. -/
theorem refVal_eq_kernelVal (X : (⟨2, ![16384, 768]⟩ : Shape).Idx → EReal) (hX : ∀ i, ∃ r : ℝ, X i = (r : EReal))
    (p q : Fin 768) : refVal X p q = kernelVal X p q := by
  choose a ha using hX
  have hS : ∑ n : Fin 16384, X (ix2 n p) * X (ix2 n q) = ((∑ n : Fin 16384, a (ix2 n p) * a (ix2 n q) : ℝ) : EReal) :=
    gram_real Finset.univ _ _ _ _ (fun n => ha (ix2 n p)) (fun n => ha (ix2 n q))
  have hT : ∑ n : Fin 16384, X (ix2 n p) * X (ix2 n p) = ((∑ n : Fin 16384, a (ix2 n p) * a (ix2 n p) : ℝ) : EReal) :=
    gram_real Finset.univ _ _ _ _ (fun n => ha (ix2 n p)) (fun n => ha (ix2 n p))
  obtain ⟨d, hd⟩ : ∃ d : ℝ, (if p = q then
        Ideal.div (Ideal.ofBits .f32 0x00000000#32 + ∑ n : Fin 16384, X (ix2 n p) * X (ix2 n p))
          (Ideal.ofBits .f32 0x46800000#32)
      else Ideal.ofBits .f32 0x00000000#32) = (d : EReal) := by
    by_cases hpq : p = q
    · refine ⟨(∑ n : Fin 16384, a (ix2 n p) * a (ix2 n p)) * (1 / 16384), ?_⟩
      rw [if_pos hpq, hT, ofBits_zero, zero_add, ofBits_N, div_N_real]
    · exact ⟨0, by rw [if_neg hpq, ofBits_zero, EReal.coe_zero]⟩
  unfold refVal kernelVal
  rw [hd, hS, ofBits_half, ofBits_N, ofBits_one, ofBits_invN]
  exact (mix_real _ d).symm

end Cert.GramSpec

end
-- ==== Proof.lean ====
/-
  The Gram-matrix kernel against its reference, over the extended reals.

  Both programs reshape the argument to a matrix X of 16384 rows and 768 columns.  The kernel accumulates the
  Gram sums S p q = ∑ₙ X n p · X n q over four bands of 4096 rows, two row-blocks of 384 output rows, and writes
  ½·(S p q · 2⁻¹⁴) − ½.  The reference computes ½·(S/16384 − D) + ½·(D − 1), D the diagonal matrix of the column
  mean squares.  Under the precondition every entry of X is a real number, so every sum is real, D cancels, and
  2⁻¹⁴ is exactly 1/16384: the two results are equal index by index.  The frames are the programs' runs with the
  result dropped; the idealization rewrote nothing, so `preserves` is `True`.
-/
import proofs.«152765_j67310727463545_2_alg».proof.Defs
import proofs.«152765_j67310727463545_2_alg».proof.Proof.Gen.Kernel
import proofs.«152765_j67310727463545_2_alg».proof.Proof.Gen.Kernel.Skeleton
import proofs.«152765_j67310727463545_2_alg».proof.Proof.Gen.Kernel.Launch
import proofs.«152765_j67310727463545_2_alg».proof.Proof.Gen.Kernel.Points
import proofs.«152765_j67310727463545_2_alg».proof.Proof.Gen.Kernel.Frame
import proofs.«152765_j67310727463545_2_alg».proof.Proof.Gen.KernelIdeal
import proofs.«152765_j67310727463545_2_alg».proof.Proof.Gen.KernelIdeal.Skeleton
import proofs.«152765_j67310727463545_2_alg».proof.Proof.Gen.KernelIdeal.Launch
import proofs.«152765_j67310727463545_2_alg».proof.Proof.Gen.KernelIdeal.Points
import proofs.«152765_j67310727463545_2_alg».proof.Proof.Gen.KernelIdeal.Frame
import proofs.«152765_j67310727463545_2_alg».proof.Proof.Gen.KernelIdeal.Value
import proofs.«152765_j67310727463545_2_alg».proof.Proof.Gen.ReferenceIdeal
import proofs.«152765_j67310727463545_2_alg».proof.Proof.Gen.Pre_finite_inputs
import proofs.«152765_j67310727463545_2_alg».proof.Proof.Blocks
import proofs.«152765_j67310727463545_2_alg».proof.Proof.RefRead
import proofs.«152765_j67310727463545_2_alg».proof.Proof.Finite
import proofs.«152765_j67310727463545_2_alg».proof.Proof.Join
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.RefValue.run (F := Ideal) m ρ)

theorem preserves : Cert.preserves_Kernel_KernelIdeal := trivial

/-- Every entry of the reshaped argument is an entry of the argument, hence real under the precondition. -/
theorem rows_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (hs : Cert.KernelIdeal.S8x2048x768.ShapeCasts Cert.KernelIdeal.S16384x768) (i : Cert.KernelIdeal.S16384x768.Idx) :
    ∃ r : ℝ, shapeCast Cert.KernelIdeal.S16384x768
      (m ((c.tc : Thread Cert.KernelIdeal.nD Cert.KernelIdeal.τ).loc Cert.KernelIdeal.main_arg0)) hs i = (r : EReal) := by
  unfold shapeCast
  exact Cert.Finite.real_of_pre (hPre := Cert.Pre_finite_inputs.Gen.facts) m h c _

/-- From arguments that agree, the kernel's output array and the reference's result are the same function of the
    reshaped argument: the two closed forms, which agree on a real matrix. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Blocks.run m ρ, ?_⟩
  refine (θ_run Cert.ReferenceIdeal.defs _ _).mono (fun _ h c => ⟨(h c).1.trans ?_, (h c).2⟩)
    (Cert.ReferenceIdeal.RefValue.run (F := Ideal) m' ρ')
  rw [hagree c]
  funext j
  obtain ⟨p, q, rfl⟩ : ∃ (p q : Fin 768), j = ix2 p q := ⟨j 0, j 1, eq_ix2 j⟩
  rw [Cert.ReferenceIdeal.RefValue.refTerm_apply]
  exact Cert.GramSpec.refVal_eq_kernelVal _ (rows_real m hpre c _) p q

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
